-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x4096 : Shape := ⟨2, ![65536, 4096]⟩
abbrev S4096x2 : Shape := ⟨2, ![4096, 2]⟩
abbrev S_ : Shape := ⟨0, ![]⟩

class Facts : Prop where
  bcast_S_S65536x4096 : S_.BroadcastsInDim S65536x4096 (![] : Fin 0 → Fin S65536x4096.rank)
  reducesTo_S65536x4096_S_d0_1 : S65536x4096.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_

variable [Facts]

def fn {F : FTy → Type} [FloatOps F] (main_arg0 : FVec F S65536x4096 .f32) (main_arg1 : FVec F S4096x2 .f32) : IVec S_ 1 :=
  let main_v0 : FVec F S65536x4096 .f32 := Host.absf main_arg0
  let main_cst : FVec F S_ .f32 := constant S_ .f32 0x7F800000#32
  let main_v1 : FVec F S65536x4096 .f32 := broadcastInDim S65536x4096 ![] bcast_S_S65536x4096 main_cst
  let main_v2 : IVec S65536x4096 1 := cmpf .olt main_v0 main_v1
  let main_c : IVec S_ 1 := constantI S_ 1 1#1
  let main_v3 : IVec S_ 1 := (fun x v => Host.reduce IntOp.andi x v reducesTo_S65536x4096_S_d0_1 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  main_v8
-- ==== Kernel.lean ====
abbrev S65536x4096 : Shape := ⟨2, ![65536, 4096]⟩
abbrev S4096x2 : Shape := ⟨2, ![4096, 2]⟩
abbrev S_ : Shape := ⟨0, ![]⟩
abbrev S8x4096 : Shape := ⟨2, ![8, 4096]⟩
abbrev S2x4096 : Shape := ⟨2, ![2, 4096]⟩
abbrev S1 : Shape := ⟨1, ![1]⟩
abbrev S8x65536 : Shape := ⟨2, ![8, 65536]⟩
abbrev S512x4096 : Shape := ⟨2, ![512, 4096]⟩
abbrev S8x512 : Shape := ⟨2, ![8, 512]⟩
abbrev S2x65536 : Shape := ⟨2, ![2, 65536]⟩
abbrev S65536x2 : Shape := ⟨2, ![65536, 2]⟩

abbrev nBuf : Space → Nat
  | .hbm => 12
  | .vmem => 5
  | .smem => 0
  | _ => 0

abbrev bufTy : (tb : Table) → Fin (tcTables nBuf tb) → BufTy
  | .hbm, ⟨0, _⟩ => ⟨S65536x4096, .f32⟩
  | .hbm, ⟨1, _⟩ => ⟨S4096x2, .f32⟩
  | .hbm, ⟨2, _⟩ => ⟨S_, .f32⟩
  | .hbm, ⟨3, _⟩ => ⟨S8x4096, .f32⟩
  | .hbm, ⟨4, _⟩ => ⟨S2x4096, .f32⟩
  | .hbm, ⟨5, _⟩ => ⟨S_, .i32⟩
  | .hbm, ⟨6, _⟩ => ⟨S1, .i32⟩
  | .hbm, ⟨7, _⟩ => ⟨S8x4096, .f32⟩
  | .hbm, ⟨8, _⟩ => ⟨S8x4096, .bf16⟩
  | .hbm, ⟨9, _⟩ => ⟨S8x65536, .f32⟩
  | .hbm, ⟨10, _⟩ => ⟨S2x65536, .f32⟩
  | .hbm, ⟨11, _⟩ => ⟨S65536x2, .f32⟩
  | .local _ .vmem, ⟨0, _⟩ => ⟨S512x4096, .f32⟩
  | .local _ .vmem, ⟨1, _⟩ => ⟨S512x4096, .f32⟩
  | .local _ .vmem, ⟨2, _⟩ => ⟨S8x4096, .bf16⟩
  | .local _ .vmem, ⟨3, _⟩ => ⟨S8x512, .f32⟩
  | .local _ .vmem, ⟨4, _⟩ => ⟨S8x512, .f32⟩
  | _, _ => ⟨S65536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8x4096 : S_.BroadcastsInDim S8x4096 (![] : Fin 0 → Fin S8x4096.rank)
  transposes_S4096x2_S2x4096_1_0 : S4096x2.Transposes [1, 0] S2x4096
  bcast_S_S1 : S_.BroadcastsInDim S1 (![] : Fin 0 → Fin S1.rank)
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S8x512_S8x512_0_0 : ∀ a, (![0, 0] : Fin 2 → Nat) a + S8x512.size a ≤ S8x512.size a
  h_S8x512 : 0 < S8x512.numel
  slices_S8x65536_S2x65536_0_0 : S8x65536.Slices ![0, 0] S2x65536
  transposes_S2x65536_S65536x2_1_0 : S2x65536.Transposes [1, 0] S65536x2
  scatter_S8x4096_S1_S2x4096_01_n_0_0_wf : ScatterDims.WF S8x4096 S1 S2x4096 [0, 1] [] [0] 0
  dot_S8x4096_S512x4096_S8x512_1_1_0_0_n_n_wf : DotDims.WF S8x4096 S512x4096 S8x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S65536x4096.size a
  hwx0_0 : ∀ i : grid0.Coords, EltTy.bits .f32 = 32 ∨ (Rect.block (s := S65536x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .bf16 = 32 ∨ (Rect.block (s := S8x4096) S8x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x65536.size a
  hwx0_2 : ∀ i : grid0.Coords, EltTy.bits .f32 = 32 ∨ (Rect.block (s := S8x65536) S8x512.size (cc0_transform_2 i) (hinb0_2 i)).WholeWords (EltTy.packing .f32)

variable [Facts₀]

def scatter_S8x4096_S1_S2x4096_01_n_0_0 : ScatterDims S8x4096 S1 S2x4096 where
  updateWindowDims := [0, 1]
  insertedWindowDims := []
  scatterDimsToOperandDims := [0]
  indexVectorDim := 0
  wf := scatter_S8x4096_S1_S2x4096_01_n_0_0_wf
def dot_S8x4096_S512x4096_S8x512_1_1_0_0_n_n : DotDims S8x4096 S512x4096 S8x512 where
  lhsContracting := [1]
  rhsContracting := [1]
  lhsNonContracting := [0]
  rhsNonContracting := [0]
  lhsBatch := []
  rhsBatch := []
  wf := dot_S8x4096_S512x4096_S8x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x4096 : Shape := ⟨2, ![65536, 4096]⟩
abbrev S4096x2 : Shape := ⟨2, ![4096, 2]⟩
abbrev S65536x2 : Shape := ⟨2, ![65536, 2]⟩

abbrev nBuf : Space → Nat
  | .hbm => 3
  | .vmem => 0
  | .smem => 0
  | _ => 0

abbrev bufTy : (tb : Table) → Fin (tcTables nBuf tb) → BufTy
  | .hbm, ⟨0, _⟩ => ⟨S65536x4096, .f32⟩
  | .hbm, ⟨1, _⟩ => ⟨S4096x2, .f32⟩
  | .hbm, ⟨2, _⟩ => ⟨S65536x2, .f32⟩
  | _, _ => ⟨S65536x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S65536x4096_S4096x2_S65536x2_1_0_0_1_n_n_wf : DotDims.WF S65536x4096 S4096x2 S65536x2 [1] [0] [0] [1] [] []

variable [Facts₀]

def dot_S65536x4096_S4096x2_S65536x2_1_0_0_1_n_n : DotDims S65536x4096 S4096x2 S65536x2 where
  lhsContracting := [1]
  rhsContracting := [0]
  lhsNonContracting := [0]
  rhsNonContracting := [1]
  lhsBatch := []
  rhsBatch := []
  wf := dot_S65536x4096_S4096x2_S65536x2_1_0_0_1_n_n_wf

class Facts : Prop extends Facts₀ where

variable [Facts]
-- ==== Proof.Spec.lean ====
/-
  The value both programs compute, as one function of the two argument arrays.

  With `X` the 65536×4096 activations and `W` the 4096×2 weights, entry `(r, a)` of the 65536×2 result is
  `∑ k, W (k, a) · X (r, k)` on the extended reals: the matrix product `X · W`, each term written with the weight first
  (the order in which the kernel's product of the padded, transposed weights by the activations' block meets them).
  The reference's `∑ k, X (r, k) · W (k, a)` is the same sum term by term, multiplication of extended reals being
  commutative; no finiteness of the inputs is used.
-/
import Idealize.ShloMosaic.PureOps.Ideal
import Idealize.ShloMosaic.Lib.ValueIdx

noncomputable section

namespace Cert.Spec

open Idealize.ShloMosaic Idealize.ShloMosaic.ValueIdx

/-- Entry `(r, a)` of the product of the activations by the weights. -/
def result (X : (⟨2, ![65536, 4096]⟩ : Shape).Idx → EReal) (W : (⟨2, ![4096, 2]⟩ : Shape).Idx → EReal) :
    (⟨2, ![65536, 2]⟩ : Shape).Idx → EReal :=
  fun i => ∑ k : Fin 4096, W (ix2 k (⟨(i 1).val, idx2_lt1 i⟩ : Fin 2)) * X (ix2 (⟨(i 0).val, idx2_lt0 i⟩ : Fin 65536) k)

/-- The same with the entry's coordinates named. -/
theorem result_ix (X : (⟨2, ![65536, 4096]⟩ : Shape).Idx → EReal) (W : (⟨2, ![4096, 2]⟩ : Shape).Idx → EReal)
    (r : Fin 65536) (a : Fin 2) : result X W (ix2 r a) = ∑ k : Fin 4096, W (ix2 k a) * X (ix2 r k) := rfl

end Cert.Spec

end
-- ==== Proof.RefSide.lean ====
/-
  The reference computes the specified product.

  The reference is one host contraction of the activations' second axis with the weights' first: entry `i` is
  `∑ k, X (i 0, k) · W (k, i 1)`. Swapping the two factors of every term gives the specification's sum.
-/
import proofs.«132077_j62380105007527_2_alg».proof.Defs
import proofs.«132077_j62380105007527_2_alg».proof.Proof.Gen.ReferenceIdeal.Run
import proofs.«132077_j62380105007527_2_alg».proof.Proof.Gen.ReferenceIdeal.Read
import proofs.«132077_j62380105007527_2_alg».proof.Proof.Spec

noncomputable section

namespace Cert.ReferenceIdeal.RefValue

open Cert.ReferenceIdeal Cert.ReferenceIdeal.Gen Idealize.ShloMosaic Idealize.ShloMosaic.ValueIdx

/-- The reference's one stage is the specified product of its two arguments. -/
theorem stage_eq_result (X : (⟨S65536x4096, .f32⟩ : BufTy).Contents (Elt Ideal)) (W : (⟨S4096x2, .f32⟩ : BufTy).Contents (Elt Ideal)) :
    Cert.ReferenceIdeal.Read.val_main_v0 (F := Ideal) X W = Cert.Spec.result X W := by
  funext i
  rw [Cert.ReferenceIdeal.Read.val_main_v0_apply]
  unfold Cert.Spec.result
  refine Finset.sum_congr rfl fun k _ => ?_
  have el : Cert.ReferenceIdeal.Read.lidx_main_v0 i k = ix2 (⟨(i 0).val, idx2_lt0 i⟩ : Fin 65536) k :=
    funext fun a => Fin.ext (by
      match a with
      | ⟨0, _⟩ => rfl
      | ⟨1, _⟩ => rfl)
  have er : Cert.ReferenceIdeal.Read.ridx_main_v0 i k = ix2 k (⟨(i 1).val, idx2_lt1 i⟩ : Fin 2) :=
    funext fun a => Fin.ext (by
      match a with
      | ⟨0, _⟩ => rfl
      | ⟨1, _⟩ => rfl)
  rw [el, er, mul_comm]

end Cert.ReferenceIdeal.RefValue

end
-- ==== Proof.BodyProduct.lean ====
/-
  The kernel body's one stored value, read at an entry.

  The body loads a 512×4096 block `x` of the activations and the whole 8×4096 weight block `w`, narrows `x` to bf16
  (the identity on the extended reals), and multiplies `w` by `x` with BOTH operands contracted on their last axis,
  into a zero accumulator. So entry `(n, p)` of the 8×512 result is `∑ k, w (n, k) · x (p, k)`: the contraction's index
  set is one axis of extent 4096, re-indexed by `Fin 4096`, and the two operand indices at a contraction index `k`
  are `(n, k)` and `(p, k)`.
-/
import proofs.«132077_j62380105007527_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BodyProduct

open Cert.KernelIdeal Cert.KernelIdeal.Gen Idealize.ShloMosaic Idealize.ShloMosaic.ValueIdx

/-- The weights' index at output entry `i` and contraction index `q` has row `i 0`. -/
theorem lhs_row (i : S8x512.Idx) (q : dot_S8x4096_S512x4096_S8x512_1_1_0_0_n_n.contr.Idx) :
    (dot_S8x4096_S512x4096_S8x512_1_1_0_0_n_n.lhsIdx i q 0).val = (i 0).val := by
  unfold DotDims.lhsIdx
  rw [dif_neg (show ¬(0 : Fin S8x4096.rank) ∈ dot_S8x4096_S512x4096_S8x512_1_1_0_0_n_n.lhsBatch by decide),
    dif_pos (show (0 : Fin S8x4096.rank) ∈ dot_S8x4096_S512x4096_S8x512_1_1_0_0_n_n.lhsNonContracting by decide)]
  rfl
/-- The weights' index at output entry `i` and contraction index `q` has column the contraction coordinate. -/
theorem lhs_col (i : S8x512.Idx) (q : dot_S8x4096_S512x4096_S8x512_1_1_0_0_n_n.contr.Idx) :
    (dot_S8x4096_S512x4096_S8x512_1_1_0_0_n_n.lhsIdx i q 1).val = (q ⟨0, by decide⟩).val :=
  dot_S8x4096_S512x4096_S8x512_1_1_0_0_n_n.lhsIdx_val_of_single rfl i q
/-- The activations' index at output entry `i` and contraction index `q` has row `i 1`: the block's row is the result's column. -/
theorem rhs_row (i : S8x512.Idx) (q : dot_S8x4096_S512x4096_S8x512_1_1_0_0_n_n.contr.Idx) :
    (dot_S8x4096_S512x4096_S8x512_1_1_0_0_n_n.rhsIdx i q 0).val = (i 1).val := by
  unfold DotDims.rhsIdx
  rw [dif_neg (show ¬(0 : Fin S512x4096.rank) ∈ dot_S8x4096_S512x4096_S8x512_1_1_0_0_n_n.rhsBatch by decide),
    dif_pos (show (0 : Fin S512x4096.rank) ∈ dot_S8x4096_S512x4096_S8x512_1_1_0_0_n_n.rhsNonContracting by decide)]
  rfl
/-- The activations' index at output entry `i` and contraction index `q` has column the contraction coordinate. -/
theorem rhs_col (i : S8x512.Idx) (q : dot_S8x4096_S512x4096_S8x512_1_1_0_0_n_n.contr.Idx) :
    (dot_S8x4096_S512x4096_S8x512_1_1_0_0_n_n.rhsIdx i q 1).val = (q ⟨0, by decide⟩).val :=
  dot_S8x4096_S512x4096_S8x512_1_1_0_0_n_n.rhsIdx_val_of_single rfl i q

/-- Entry `(n, p)` of the body's stored value is the sum over `k` of the weights' `(n, k)` times the activations' `(p, k)`. -/
theorem pay_ix (x : Vec Ideal S512x4096 .f32) (w : Vec Ideal S8x4096 .bf16) (n : Fin 8) (p : Fin 512) :
    k0_pay1 (F := Ideal) x w (ix2 n p) = ∑ k : Fin 4096, w (ix2 n k) * x (ix2 p k) := by
  unfold k0_pay1
  show FloatOps.matmul dot_S8x4096_S512x4096_S8x512_1_1_0_0_n_n none (shapeCast S8x4096 w shapeCasts_S8x4096_S8x4096)
    (truncf (F := Ideal) .bf16 x bitsLt_bf16_f32) (constant (F := Ideal) S8x512 .f32 0x00000000#32) (ix2 n p) = _
  rw [shapeCast_self, Ideal.matmul_constant_zero_apply,
    ← Equiv.sum_comp (contrEquiv1 dot_S8x4096_S512x4096_S8x512_1_1_0_0_n_n 4096 rfl rfl).symm]
  refine Finset.sum_congr rfl fun k _ => ?_
  have hk := contrEquiv1_symm_val dot_S8x4096_S512x4096_S8x512_1_1_0_0_n_n 4096 rfl rfl k
  have el : dot_S8x4096_S512x4096_S8x512_1_1_0_0_n_n.lhsIdx (ix2 n p)
      ((contrEquiv1 dot_S8x4096_S512x4096_S8x512_1_1_0_0_n_n 4096 rfl rfl).symm k) = ix2 n k :=
    funext fun a => Fin.ext (by
      match a with
      | ⟨0, _⟩ => exact lhs_row _ _
      | ⟨1, _⟩ => exact (lhs_col _ _).trans hk)
  have er : dot_S8x4096_S512x4096_S8x512_1_1_0_0_n_n.rhsIdx (ix2 n p)
      ((contrEquiv1 dot_S8x4096_S512x4096_S8x512_1_1_0_0_n_n 4096 rfl rfl).symm k) = ix2 p k :=
    funext fun a => Fin.ext (by
      match a with
      | ⟨0, _⟩ => exact rhs_row _ _
      | ⟨1, _⟩ => exact (rhs_col _ _).trans hk)
  rw [el, er]
  rfl

/-- The same at any index `y` of the 8×512 block, by its coordinates. -/
theorem pay_apply (x : Vec Ideal S512x4096 .f32) (w : Vec Ideal S8x4096 .bf16) (y : S8x512.Idx) :
    k0_pay1 (F := Ideal) x w y
      = ∑ k : Fin 4096, w (ix2 (⟨(y 0).val, (y 0).isLt⟩ : Fin 8) k) * x (ix2 (⟨(y 1).val, (y 1).isLt⟩ : Fin 512) k) := by
  obtain ⟨n, p, rfl⟩ : ∃ (n : Fin 8) (p : Fin 512), y = ix2 n p := ⟨y 0, y 1, eq_ix2 y⟩
  exact pay_ix x w n p

end Cert.KernelIdeal.BodyProduct

end
-- ==== Proof.Blocks.lean ====
/-
  From the body's blocks to the kernel's whole output array.

  The region's output is an 8×65536 array written in 128 blocks of 8×512: point `t` reads rows `512 t … 512 t + 511` of
  the activations and the whole weight block, and writes back columns `512 t … 512 t + 511` of the output. Each written
  block is the matching block of ONE function of the two input arrays — entry `(n, r)` is `∑ k, Wt (n, k) · X (r, k)` —
  and the blocks tile the array (column `r` is in block `r / 512`), so the array ends holding that function.
-/
import proofs.«132077_j62380105007527_2_alg».proof.Proof.Gen.KernelIdeal.Frame
import proofs.«132077_j62380105007527_2_alg».proof.Proof.BodyProduct
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The weights times the transposed activations: entry `(n, r)` is `∑ k, Wt (n, k) · X (r, k)`. -/
def product (X : S65536x4096.Idx → EReal) (Wt : S8x4096.Idx → EReal) : S8x65536.Idx → EReal :=
  fun i => ∑ k : Fin 4096, Wt (ix2 (⟨(i 0).val, idx2_lt0 i⟩ : Fin 8) k) * X (ix2 (⟨(i 1).val, idx2_lt1 i⟩ : Fin 65536) k)

/-- The product at an index whose coordinates are named. -/
theorem product_apply (X : S65536x4096.Idx → EReal) (Wt : S8x4096.Idx → EReal) (i : S8x65536.Idx) (n : Fin 8)
    (r : Fin 65536) (h0 : (i 0).val = n.val) (h1 : (i 1).val = r.val) :
    product X Wt i = ∑ k : Fin 4096, Wt (ix2 n k) * X (ix2 r k) := by
  unfold product
  have e0 : (⟨(i 0).val, idx2_lt0 i⟩ : Fin 8) = n := Fin.ext h0
  have e1 : (⟨(i 1).val, idx2_lt1 i⟩ : Fin 65536) = r := Fin.ext h1
  rw [e0, e1]

/-- The printed index maps, decided over the grid: the activations' block index is `(t, 0)`, the weights' `(0, 0)`, the
    output's `(0, t)`. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

theorem points : cfg0.N = 128 := N_0

/-- The activations' block at point `t` is rows `512 t …` of the array the region finds. -/
theorem acts_block (c : Dev nD) (t : Fin cfg0.N) (p : Fin 512) (k : Fin 4096) (r : Fin 65536)
    (hr : r.val = t.val * 512 + p.val) :
    (iblk m c 0 t : Vec Ideal S512x4096 .f32) (ix2 p k) = (V m c main_arg0 : S65536x4096.Idx → EReal) (ix2 r k) := by
  obtain ⟨e0, e1, -, -, -, -⟩ := index_maps t
  unfold iblk
  rw [View.read_apply]
  show V m c main_arg0 _ = V m c main_arg0 _
  congr 1
  funext a
  apply Fin.ext
  match a with
  | ⟨0, _⟩ => show win0_0.index t 0 * 512 + 1 * p.val = r.val; rw [e0, hr]; omega
  | ⟨1, _⟩ => show win0_0.index t 1 * 4096 + 1 * k.val = k.val; rw [e1]; omega

/-- The weights' block at every point is the whole array the region finds. -/
theorem weights_block (c : Dev nD) (t : Fin cfg0.N) (n : Fin 8) (k : Fin 4096) :
    (iblk m c 1 t : Vec Ideal S8x4096 .bf16) (ix2 n k) = (V m c main_v4 : S8x4096.Idx → EReal) (ix2 n k) := by
  obtain ⟨-, -, e2, e3, -, -⟩ := index_maps t
  unfold iblk
  rw [View.read_apply]
  show V m c main_v4 _ = V m c main_v4 _
  congr 1
  funext a
  apply Fin.ext
  match a with
  | ⟨0, _⟩ => show win0_1.index t 0 * 8 + 1 * n.val = n.val; rw [e2]; omega
  | ⟨1, _⟩ => show win0_1.index t 1 * 4096 + 1 * k.val = k.val; rw [e3]; omega

/-- WHAT POINT `t` WRITES BACK is block `t` of the product of the arrays the region finds. -/
theorem flushed_eq (c : Dev nD) (t : Fin cfg0.N) :
    (dats m 0 c).flushed 2 t
      = ((cfg0.win 2).blk t).view.read (Elt Ideal) (product (V m c main_arg0) (V m c main_v4)) := by
  show (cfg0.win 2).cut (grid0.coords t) ((dats m 0 c).after 2 t) = _
  rw [after0_2]
  unfold out0_2
  rw [View.canon_unit_zero zero_offsets]
  simp only [View.ld_unit_zero (S := S512x4096) zero_offsets, View.ld_unit_zero (S := S8x4096) zero_offsets]
  obtain ⟨-, -, -, -, e4, e5⟩ := index_maps t
  have ht : t.val < 128 := lt_of_lt_of_eq t.isLt points
  funext j
  refine (BodyProduct.pay_apply (iblk m c 0 t) (iblk m c 1 t) j).trans ?_
  have hj0 : (j 0).val < 8 := (j 0).isLt
  have hj1 : (j 1).val < 512 := (j 1).isLt
  show _ = product (V m c main_arg0) (V m c main_v4) (((cfg0.win 2).blk t).view.emb j)
  refine Eq.trans ?_ (product_apply _ _ _ (⟨(j 0).val, hj0⟩ : Fin 8) (⟨t.val * 512 + (j 1).val, by omega⟩ : Fin 65536) ?_ ?_).symm
  · refine Finset.sum_congr rfl fun k _ => ?_
    exact congrArg₂ (· * ·) (weights_block m c t (⟨(j 0).val, hj0⟩ : Fin 8) k)
      (acts_block m c t (⟨(j 1).val, hj1⟩ : Fin 512) k (⟨t.val * 512 + (j 1).val, by omega⟩ : Fin 65536) rfl)
  · show win0_2.index t 0 * 8 + 1 * (j 0).val = (j 0).val; rw [e4]; omega
  · show win0_2.index t 1 * 512 + 1 * (j 1).val = t.val * 512 + (j 1).val; rw [e5]; omega

/-- An index of the output array is in point `t`'s block iff each coordinate is in the block's range on its axis. -/
theorem mem_blk (t : Fin cfg0.N) (i : S8x65536.Idx) :
    i ∈ ((cfg0.win 2).blk t).view.set ↔ ∀ a : Fin 2, win0_2.index t a * S8x512.size a ≤ (i a).val
      ∧ (i a).val < win0_2.index t a * S8x512.size a + S8x512.size a := by
  show i ∈ ((View.whole main_v5).slice (win0_2.rect t)).set ↔ _
  rw [View.set_slice_whole, Rect.mem_set_unit]
  exact Iff.rfl

/-- Every index of the output array is in the block of the point its column's 512-group names. -/
theorem covered (i : S8x65536.Idx) :
    ∃ t : Fin cfg0.N, (cfg0.win 2).flush t = true ∧ i ∈ ((cfg0.win 2).blk t).view.set := by
  have hi0 : (i 0).val < 8 := idx2_lt0 i
  have hi1 : (i 1).val < 65536 := idx2_lt1 i
  obtain ⟨t, ht⟩ : ∃ t : Fin cfg0.N, t.val = (i 1).val / 512 := ⟨⟨(i 1).val / 512, by rw [points]; omega⟩, rfl⟩
  obtain ⟨-, -, -, -, e4, e5⟩ := index_maps t
  have e5' : win0_2.index t 1 = (i 1).val / 512 := e5.trans ht
  refine ⟨t, flush0_2 t, ?_⟩
  rw [mem_blk]
  intro a
  match a with
  | ⟨0, _⟩ =>
    show win0_2.index t 0 * 8 ≤ (i 0).val ∧ (i 0).val < win0_2.index t 0 * 8 + 8
    rw [e4]; omega
  | ⟨1, _⟩ =>
    show win0_2.index t 1 * 512 ≤ (i 1).val ∧ (i 1).val < win0_2.index t 1 * 512 + 512
    rw [e5']; omega

/-- THE OUTPUT ARRAY after the run is the product of the arrays the region finds. -/
theorem final (c : Dev nD) :
    (dats m 0 c).arrAt 2 cfg0.N = product (V m c main_arg0) (V m c main_v4) :=
  (dats m 0 c).arrAt_eq_of_cover 2 _ (fun t _ => flushed_eq m c t) covered

end Cert.KernelIdeal.Blocks

end
-- ==== Proof.LibScatterSet.lean ====
/-
  A scatter whose body keeps the update ("set"), read at one element.

  The scatter is a left fold over the update's indices in row-major order: the step at update index `j` overwrites the
  element its result index names, if that index lies inside the operand, and does nothing otherwise. So an element
  that is the result index of exactly one update index ends holding that update's value, whatever the other steps
  do (they touch other elements), and an element that is no update's result index keeps the operand's value. When the
  result indices are given by one injective map of the update indices, every update lands on its own element.
-/
import Idealize.ShloMosaic.PureOps

noncomputable section

namespace Cert.LibScatterSet

open Idealize.ShloMosaic

variable {s si u : Shape} {α : Type} {w : Nat}

/-- One step of the fold: update index number `n` (row-major) applied to the running result `r`. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- The scatter is the fold of its steps. -/
theorem scatter_eq_foldl (d : ScatterDims s si u) (f : α → α → α) (x : s.Idx → α) (idx : IVec si w) (upd : u.Idx → α) :
    Host.scatter d f x idx upd = (List.finRange u.numel).foldl (step d f idx upd) x := rfl

/-- A step whose result index is another element leaves this one alone. -/
theorem step_of_ne (d : ScatterDims s si u) (f : α → α → α) (idx : IVec si w) (upd : u.Idx → α) (r : s.Idx → α)
    (n : Fin u.numel) (i : s.Idx) (h : d.resultIdx? (u.rowMajor.symm n) idx ≠ some i) :
    step d f idx upd r n i = r i := by
  unfold step
  cases h0 : d.resultIdx? (u.rowMajor.symm n) idx with
  | none => rfl
  | some i0 =>
    rw [h0] at h
    show (if i = i0 then f (r i0) (upd (u.rowMajor.symm n)) else r i) = r i
    exact if_neg (fun e => h (by rw [e]))

/-- Steps none of which lands on element `i` leave it alone. -/
theorem foldl_of_ne (d : ScatterDims s si u) (f : α → α → α) (idx : IVec si w) (upd : u.Idx → α) (i : s.Idx)
    (l : List (Fin u.numel)) (r : s.Idx → α) (h : ∀ n ∈ l, d.resultIdx? (u.rowMajor.symm n) idx ≠ some i) :
    (l.foldl (step d f idx upd) r) i = r i := by
  induction l generalizing r with
  | nil => rfl
  | cons a l ih =>
    rw [List.foldl_cons, ih _ (fun n hn => h n (List.mem_cons_of_mem _ hn))]
    exact step_of_ne d f idx upd r a i (h a List.mem_cons_self)

/-- The step that lands on element `i`, its body keeping the update, leaves the update's value there. -/
theorem step_of_eq (d : ScatterDims s si u) (idx : IVec si w) (upd : u.Idx → α) (r : s.Idx → α)
    (n : Fin u.numel) (i : s.Idx) (h : d.resultIdx? (u.rowMajor.symm n) idx = some i) :
    step d (fun _ b => b) idx upd r n i = upd (u.rowMajor.symm n) := by
  unfold step
  cases h0 : d.resultIdx? (u.rowMajor.symm n) idx with
  | none => rw [h0] at h; cases h
  | some i0 =>
    rw [h0] at h
    obtain rfl : i0 = i := Option.some.inj h
    show (if i0 = i0 then upd (u.rowMajor.symm n) else r i0) = upd (u.rowMajor.symm n)
    exact if_pos rfl

/-- Of steps exactly one of which (`n₀`) lands on element `i`, that one's update is what `i` ends holding. -/
theorem foldl_of_unique (d : ScatterDims s si u) (idx : IVec si w) (upd : u.Idx → α) (i : s.Idx)
    (l : List (Fin u.numel)) (r : s.Idx → α) (n₀ : Fin u.numel) (hmem : n₀ ∈ l)
    (hhit : d.resultIdx? (u.rowMajor.symm n₀) idx = some i)
    (huniq : ∀ n ∈ l, d.resultIdx? (u.rowMajor.symm n) idx = some i → n = n₀) :
    (l.foldl (step d (fun _ b => b) idx upd) r) i = upd (u.rowMajor.symm n₀) := by
  induction l generalizing r with
  | nil => cases hmem
  | cons a l ih =>
    rw [List.foldl_cons]
    by_cases hl : n₀ ∈ l
    · exact ih _ hl (fun n hn => huniq n (List.mem_cons_of_mem _ hn))
    · have ha : a = n₀ := by
        rcases List.mem_cons.1 hmem with e | e
        · exact e.symm
        · exact absurd e hl
      subst ha
      rw [foldl_of_ne d _ idx upd i l _ (fun n hn e => hl ((huniq n (List.mem_cons_of_mem _ hn) e) ▸ hn))]
      exact step_of_eq d idx upd r a i hhit

/-- A "set" scatter at an element that exactly one update index `j` lands on holds that update's value. -/
theorem scatter_set_apply (d : ScatterDims s si u) (x : s.Idx → α) (idx : IVec si w) (upd : u.Idx → α)
    (j : u.Idx) (i : s.Idx) (hhit : d.resultIdx? j idx = some i)
    (huniq : ∀ j', d.resultIdx? j' idx = some i → j' = j) :
    Host.scatter d (fun _ b => b) x idx upd i = upd j := by
  rw [scatter_eq_foldl]
  have h := foldl_of_unique d idx upd i (List.finRange u.numel) x (u.rowMajor j) (List.mem_finRange _)
    (by rw [Equiv.symm_apply_apply]; exact hhit)
    (fun n _ e => by rw [← huniq _ e, Equiv.apply_symm_apply])
  rw [Equiv.symm_apply_apply] at h
  exact h

/-- A scatter at an element no update index lands on holds the operand's value. -/
theorem scatter_apply_of_forall_ne (d : ScatterDims s si u) (f : α → α → α) (x : s.Idx → α) (idx : IVec si w)
    (upd : u.Idx → α) (i : s.Idx) (h : ∀ j, d.resultIdx? j idx ≠ some i) :
    Host.scatter d f x idx upd i = x i := by
  rw [scatter_eq_foldl]
  exact foldl_of_ne d f idx upd i _ x (fun n _ => h _)

/-- When every update index `j` lands on `e j` for one injective map `e`, a "set" scatter holds `upd j` at `e j`. -/
theorem scatter_set_apply_of_injective (d : ScatterDims s si u) (x : s.Idx → α) (idx : IVec si w) (upd : u.Idx → α)
    (e : u.Idx → s.Idx) (he : Function.Injective e) (h : ∀ j, d.resultIdx? j idx = some (e j)) (j : u.Idx) :
    Host.scatter d (fun _ b => b) x idx upd (e j) = upd j :=
  scatter_set_apply d x idx upd j (e j) (h j) (fun j' hj' => he (Option.some.inj ((h j').symm.trans hj')))

end Cert.LibScatterSet

end
-- ==== Proof.Padded.lean ====
/-
  The weight block the region is launched with, read at its first two rows.

  Before the region the host builds an 8×4096 matrix: zeros, overwritten by a scatter whose one start index is row 0
  and whose update is the 2×4096 transpose of the 4096×2 weights, then narrowed to bf16 (the identity on the extended
  reals). Update entry `(a, k)` lands on element `(a, k)` of the operand — start 0 plus the window coordinate on
  both axes —, an injective placement, so rows 0 and 1 of the matrix are the two columns of the weights:
  entry `(a, k)` is weight `(k, a)`.
-/
import proofs.«132077_j62380105007527_2_alg».proof.Proof.Gen.KernelIdeal.Frame
import proofs.«132077_j62380105007527_2_alg».proof.Proof.LibScatterSet
import Idealize.ShloMosaic.Lib.Pipeline.Value
import Idealize.ShloMosaic.Lib.ValueIdx
import Idealize.ShloMosaic.Lib.StableHlo.Run

noncomputable section

namespace Cert.KernelIdeal.Padded

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The scatter's start indices: one index vector, its one component zero. -/
abbrev zeroStart : IVec S1 32 := broadcastInDim S1 ![] bcast_S_S1 (constantI S_ 32 0#32)

/-- Where update entry `j` lands: the same coordinates, the row read among the operand's eight. -/
def place (j : S2x4096.Idx) : S8x4096.Idx :=
  ix2 (⟨(j 0).val, by have := idx2_lt0 j; omega⟩ : Fin 8) (⟨(j 1).val, idx2_lt1 j⟩ : Fin 4096)

theorem place_injective : Function.Injective place := fun j j' h => by
  funext a; apply Fin.ext
  match a with
  | ⟨0, _⟩ =>
    have h0 : (place j 0).val = (place j' 0).val := congrArg Fin.val (congrFun h 0)
    exact h0
  | ⟨1, _⟩ =>
    have h1 : (place j 1).val = (place j' 1).val := congrArg Fin.val (congrFun h 1)
    exact h1

/-- The scatter's result index of update entry `j` is `place j`: the start is zero on both axes (the index vector's one
    component is zero and names axis 0; axis 1 is not named), and the window coordinate is `j`'s own. -/
theorem lands (j : S2x4096.Idx) : scatter_S8x4096_S1_S2x4096_01_n_0_0.resultIdx? j zeroStart = some (place j) := by
  have hs : ∀ a, scatter_S8x4096_S1_S2x4096_01_n_0_0.start j zeroStart a = 0 := fun a => by
    unfold ScatterDims.start
    split
    · rfl
    · rfl
  have hw : ∀ a, scatter_S8x4096_S1_S2x4096_01_n_0_0.window j a = (place j a).val := fun a => by
    match a with
    | ⟨0, _⟩ =>
      unfold ScatterDims.window
      rw [dif_pos (show (⟨0, by decide⟩ : Fin S8x4096.rank) ∈ scatter_S8x4096_S1_S2x4096_01_n_0_0.sKept by decide)]
      rfl
    | ⟨1, _⟩ =>
      unfold ScatterDims.window
      rw [dif_pos (show (⟨1, by decide⟩ : Fin S8x4096.rank) ∈ scatter_S8x4096_S1_S2x4096_01_n_0_0.sKept by decide)]
      rfl
  have hin : ∀ a, (0 : Int) ≤ scatter_S8x4096_S1_S2x4096_01_n_0_0.start j zeroStart a + (scatter_S8x4096_S1_S2x4096_01_n_0_0.window j a : Int)
      ∧ scatter_S8x4096_S1_S2x4096_01_n_0_0.start j zeroStart a + (scatter_S8x4096_S1_S2x4096_01_n_0_0.window j a : Int) < (S8x4096.size a : Int) := fun a => by
    rw [hs a, hw a, zero_add]
    exact ⟨Int.natCast_nonneg _, by exact_mod_cast (place j a).isLt⟩
  unfold ScatterDims.resultIdx?
  rw [dif_pos hin]
  refine congrArg some (funext fun a => Fin.ext ?_)
  show (scatter_S8x4096_S1_S2x4096_01_n_0_0.start j zeroStart a + (scatter_S8x4096_S1_S2x4096_01_n_0_0.window j a : Int)).toNat = (place j a).val
  rw [hs a, hw a, zero_add, Int.toNat_natCast]

/-- What the region finds in the weight block's array: the host operations before it, composed. -/
theorem staged (c : Dev nD) : (V m c main_v4 : S8x4096.Idx → EReal)
    = truncf .bf16 (Host.scatter scatter_S8x4096_S1_S2x4096_01_n_0_0 (fun _ b => b)
        (broadcastInDim S8x4096 ![] bcast_S_S8x4096 (constant (F := Ideal) S_ .f32 0x00000000#32)) zeroStart
        (transpose S2x4096 [1, 0] (m ((c : Thread nD τ).loc main_arg1)) transposes_S4096x2_S2x4096_1_0)) bitsLt_bf16_f32 := by
  show StableHlo.after hostOps0 (fun b => m (c, b)) (Proc.devRef .tc main_v4) = _
  after_results

/-- Entry `(a, k)` of the update lands on entry `(a, k)` of the operand. -/
theorem place_ix (a : Fin 2) (k : Fin 4096) :
    place (ix2 a k) = ix2 (⟨a.val, by have := a.isLt; omega⟩ : Fin 8) k := rfl

/-- Rows 0 and 1 of that array are the weights' two columns. -/
theorem staged_apply (c : Dev nD) (a : Fin 2) (k : Fin 4096) :
    (V m c main_v4 : S8x4096.Idx → EReal) (ix2 (⟨a.val, by have := a.isLt; omega⟩ : Fin 8) k)
      = (m ((c : Thread nD τ).loc main_arg1) : S4096x2.Idx → EReal) (ix2 k a) := by
  rw [← place_ix, staged, truncf_apply]
  refine (LibScatterSet.scatter_set_apply_of_injective scatter_S8x4096_S1_S2x4096_01_n_0_0 _ zeroStart _ place place_injective lands (ix2 a k)).trans ?_
  exact transpose_apply [1, 0] _ _ (ix2 a k) (ix2 k a) (fun b => by
    match b with
    | ⟨0, _⟩ => rfl
    | ⟨1, _⟩ => rfl)

end Cert.KernelIdeal.Padded

end
-- ==== Proof.KernelValue.lean ====
/-
  The kernel's result as the specified product of its arguments.

  After the region the host keeps rows 0 and 1 of the 8×65536 output array and transposes them: result entry `(r, a)` is
  output entry `(a, r)`, which is `∑ k, Wt (a, k) · X (r, k)` with `Wt` the padded, transposed weight block — and rows 0 and 1
  of `Wt` are the weights' two columns, `Wt (a, k) = W (k, a)`. The activations' array the region finds is the argument
  itself. So the result is `∑ k, W (k, a) · X (r, k)`.
-/
import proofs.«132077_j62380105007527_2_alg».proof.Proof.Gen.KernelIdeal.Frame
import proofs.«132077_j62380105007527_2_alg».proof.Proof.Blocks
import proofs.«132077_j62380105007527_2_alg».proof.Proof.Padded
import proofs.«132077_j62380105007527_2_alg».proof.Proof.Spec
import Idealize.ShloMosaic.Lib.Pipeline.Value
import Idealize.ShloMosaic.Lib.ValueIdx
import Idealize.ShloMosaic.Lib.StableHlo.Run

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The result buffer after the host operations that follow the region is the specified product of the arguments. -/
theorem tail_eq (c : Dev nD) :
    (Pipeline.afterTail₀ cfgs (dats m) 0 (V0 m) [hostOps1] c main_v7 : S65536x2.Idx → EReal)
      = Cert.Spec.result (m ((c : Thread nD τ).loc main_arg0)) (m ((c : Thread nD τ).loc main_arg1)) := by
  unfold Pipeline.afterTail₀
  show StableHlo.after hostOps1 _ (Proc.devRef .tc main_v7) = _
  after_results
  funext i
  obtain ⟨r, a, rfl⟩ : ∃ (r : Fin 65536) (a : Fin 2), i = ix2 r a := ⟨i 0, i 1, eq_ix2 i⟩
  rw [Cert.Spec.result_ix]
  rw [transpose_apply [1, 0] _ _ (ix2 r a) (ix2 a r) (fun b => by
    match b with
    | ⟨0, _⟩ => rfl
    | ⟨1, _⟩ => rfl)]
  rw [extractStridedSlice_apply ![0, 0] _ _ (ix2 a r) (ix2 (⟨a.val, by have := a.isLt; omega⟩ : Fin 8) r) (fun ax => by
    match ax with
    | ⟨0, _⟩ => show a.val = 0 + a.val; omega
    | ⟨1, _⟩ => show r.val = 0 + r.val; omega)]
  rw [show Pipeline.withArrays (cfgs 0).spec c (V0 m c) (fun w => (dats m 0 c).arrAt w (cfgs 0).N) (Proc.devRef .tc main_v5)
      = Blocks.product (V m c main_arg0) (V m c main_v4) from
    (Pipeline.withArrays_arr spec0 launch0.win.arr_inj c _ _ 2).trans (Blocks.final m c)]
  rw [Blocks.product_apply _ _ _ (⟨a.val, by have := a.isLt; omega⟩ : Fin 8) r rfl rfl]
  refine Finset.sum_congr rfl fun k _ => ?_
  rw [Padded.staged_apply m c a k, V_main_arg0]

/-- The kernel's run, read: the result at the specified product of the arguments, the arguments unchanged. -/
theorem run : θ_run defs (onTc (τ := τ) (main (F := Ideal))) ⟨m, fun _ => 0, ρ⟩ fun r => ∀ c : Dev nD,
      r.2.mem ((c.tc : Thread nD τ).loc main_v7)
        = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KernelValue

end
-- ==== Proof.lean ====
/-
  The kernel against its reference: a 65536×4096 by 4096×2 matrix product.

  The reference is one host contraction, entry `(r, a) = ∑ k, X (r, k) · W (k, a)`. The kernel pads the transposed weights
  to an 8×4096 block `Wt` (rows 0 and 1 the weights' columns, the rest zero), computes the 8×65536 array
  `∑ k, Wt (n, k) · X (r, k)` in 128 column blocks of 512 — each block one product, both operands contracted on their last
  axis, into a zero accumulator —, and returns rows 0 and 1 transposed: entry `(r, a) = ∑ k, W (k, a) · X (r, k)`.
  On the extended reals a narrowing of the float format is the identity and multiplication is commutative, so the two
  sums agree term by term (`Cert.Spec.result`); the inputs' finiteness is not needed.

  The three frames are the programs' runs with the results dropped; the idealization rewrote no operation, so
  `preserves` has nothing to state.
-/
import proofs.«132077_j62380105007527_2_alg».proof.Defs
import proofs.«132077_j62380105007527_2_alg».proof.Proof.Gen.Kernel
import proofs.«132077_j62380105007527_2_alg».proof.Proof.Gen.Kernel.Skeleton
import proofs.«132077_j62380105007527_2_alg».proof.Proof.Gen.Kernel.Launch
import proofs.«132077_j62380105007527_2_alg».proof.Proof.Gen.Kernel.Points
import proofs.«132077_j62380105007527_2_alg».proof.Proof.Gen.Kernel.Frame
import proofs.«132077_j62380105007527_2_alg».proof.Proof.Gen.KernelIdeal
import proofs.«132077_j62380105007527_2_alg».proof.Proof.Gen.KernelIdeal.Skeleton
import proofs.«132077_j62380105007527_2_alg».proof.Proof.Gen.KernelIdeal.Launch
import proofs.«132077_j62380105007527_2_alg».proof.Proof.Gen.KernelIdeal.Points
import proofs.«132077_j62380105007527_2_alg».proof.Proof.Gen.KernelIdeal.Frame
import proofs.«132077_j62380105007527_2_alg».proof.Proof.Gen.ReferenceIdeal
import proofs.«132077_j62380105007527_2_alg».proof.Proof.Gen.ReferenceIdeal.Run
import proofs.«132077_j62380105007527_2_alg».proof.Proof.Gen.ReferenceIdeal.Read
import proofs.«132077_j62380105007527_2_alg».proof.Proof.Gen.Pre_finite_inputs
import proofs.«132077_j62380105007527_2_alg».proof.Proof.Spec
import proofs.«132077_j62380105007527_2_alg».proof.Proof.RefSide
import proofs.«132077_j62380105007527_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specified product of the arguments: the kernel by its blocks, the padded weights and the
    transposed rows; the reference by its one contraction with the factors of each term swapped. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.stage_eq_result, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
